-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8x512x4096 : Shape := ⟨3, ![8, 512, 4096]⟩
abbrev S8x4096 : Shape := ⟨2, ![8, 4096]⟩
abbrev S8 : Shape := ⟨1, ![8]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8x512x4096 : S_.BroadcastsInDim S8x512x4096 (![] : Fin 0 → Fin S8x512x4096.rank)
  reducesTo_S8x512x4096_S_d0_1_2 : S8x512x4096.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S8192x4096 .f32) (main_arg1 : FVec F S8x512x4096 .f32) (main_arg2 : FVec F S8x4096 .f32) (main_arg3 : FVec F S8 .f32) (main_arg4 : FVec F S8 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8x512x4096 .f32 := Host.absf main_arg1
  let main_cst_0 : FVec F S_ .f32 := constant S_ .f32 0x7F800000#32
  let main_v5 : FVec F S8x512x4096 .f32 := broadcastInDim S8x512x4096 ![] bcast_S_S8x512x4096 main_cst_0
  let main_v6 : IVec S8x512x4096 1 := cmpf .olt main_v4 main_v5
  let main_c_1 : IVec S_ 1 := constantI S_ 1 1#1
  let main_v7 : IVec S_ 1 := (fun x v => Host.reduce IntOp.andi x v reducesTo_S8x512x4096_S_d0_1_2 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_v13 main_v16
-- ==== Kernel.lean ====
abbrev S8192x4096 : Shape := ⟨2, ![8192, 4096]⟩
abbrev S8x512x4096 : Shape := ⟨3, ![8, 512, 4096]⟩
abbrev S8x4096 : Shape := ⟨2, ![8, 4096]⟩
abbrev S8 : Shape := ⟨1, ![8]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩
abbrev S4096x8 : Shape := ⟨2, ![4096, 8]⟩
abbrev S8192x8 : Shape := ⟨2, ![8192, 8]⟩
abbrev S1x8 : Shape := ⟨2, ![1, 8]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8x512x4096, .f32⟩
  | .hbm, ⟨2, _⟩ => ⟨S8x4096, .f32⟩
  | .hbm, ⟨3, _⟩ => ⟨S8, .f32⟩
  | .hbm, ⟨4, _⟩ => ⟨S8, .f32⟩
  | .hbm, ⟨5, _⟩ => ⟨S8192x4096, .bf16⟩
  | .hbm, ⟨6, _⟩ => ⟨S8x512x4096, .bf16⟩
  | .hbm, ⟨7, _⟩ => ⟨S8192x4096, .f32⟩
  | .hbm, ⟨8, _⟩ => ⟨S4096x8, .f32⟩
  | .hbm, ⟨9, _⟩ => ⟨S8192x8, .f32⟩
  | .hbm, ⟨10, _⟩ => ⟨S1x8, .f32⟩
  | .hbm, ⟨11, _⟩ => ⟨S8192x8, .f32⟩
  | .hbm, ⟨12, _⟩ => ⟨S8192x8, .f32⟩
  | .hbm, ⟨13, _⟩ => ⟨S1x8, .f32⟩
  | .hbm, ⟨14, _⟩ => ⟨S8192x8, .f32⟩
  | .hbm, ⟨15, _⟩ => ⟨S8192x8, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x8, .f32⟩
  | .hbm, ⟨29, _⟩ => ⟨S8192x8, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S1024x512, .f32⟩
  | .local _ .vmem, ⟨5, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1024x512_S1024x512_0_0 : ∀ a, (![0, 0] : Fin 2 → Nat) a + S1024x512.size a ≤ S1024x512.size a
  h_S1024x512 : 0 < S1024x512.numel
  transposes_S8x4096_S4096x8_1_0 : S8x4096.Transposes [1, 0] S4096x8
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  reducesTo_S8192x8_S8192_d1 : S8192x8.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  dot_S1024x4096_S512x4096_S1024x512_1_1_0_0_n_n_wf : DotDims.WF S1024x4096 S512x4096 S1024x512 [1] [1] [0] [0] [] []
  dot_S8192x4096_S4096x8_S8192x8_1_0_0_1_n_n_wf : DotDims.WF S8192x4096 S4096x8 S8192x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S8x512x4096.size a
  hwx0_1 : ∀ i : grid0.Coords, EltTy.bits .bf16 = 32 ∨ (Rect.block (s := S8x512x4096) S1x512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf
def dot_S8192x4096_S4096x8_S8192x8_1_0_0_1_n_n : DotDims S8192x4096 S4096x8 S8192x8 where
  lhsContracting := [1]
  rhsContracting := [0]
  lhsNonContracting := [0]
  rhsNonContracting := [1]
  lhsBatch := []
  rhsBatch := []
  wf := dot_S8192x4096_S4096x8_S8192x8_1_0_0_1_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8x512x4096 : Shape := ⟨3, ![8, 512, 4096]⟩
abbrev S8x4096 : Shape := ⟨2, ![8, 4096]⟩
abbrev S8 : Shape := ⟨1, ![8]⟩
abbrev S8192x8x512 : Shape := ⟨3, ![8192, 8, 512]⟩
abbrev S4096x8 : Shape := ⟨2, ![4096, 8]⟩
abbrev S8192x8 : Shape := ⟨2, ![8192, 8]⟩
abbrev S1x8 : Shape := ⟨2, ![1, 8]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8x512x4096, .f32⟩
  | .hbm, ⟨2, _⟩ => ⟨S8x4096, .f32⟩
  | .hbm, ⟨3, _⟩ => ⟨S8, .f32⟩
  | .hbm, ⟨4, _⟩ => ⟨S8, .f32⟩
  | .hbm, ⟨5, _⟩ => ⟨S8192x8x512, .f32⟩
  | .hbm, ⟨6, _⟩ => ⟨S8192x4096, .f32⟩
  | .hbm, ⟨7, _⟩ => ⟨S8192x4096, .f32⟩
  | .hbm, ⟨8, _⟩ => ⟨S4096x8, .f32⟩
  | .hbm, ⟨9, _⟩ => ⟨S8192x8, .f32⟩
  | .hbm, ⟨10, _⟩ => ⟨S1x8, .f32⟩
  | .hbm, ⟨11, _⟩ => ⟨S8192x8, .f32⟩
  | .hbm, ⟨12, _⟩ => ⟨S8192x8, .f32⟩
  | .hbm, ⟨13, _⟩ => ⟨S1x8, .f32⟩
  | .hbm, ⟨14, _⟩ => ⟨S8192x8, .f32⟩
  | .hbm, ⟨15, _⟩ => ⟨S8192x8, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x8, .f32⟩
  | .hbm, ⟨29, _⟩ => ⟨S8192x8, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  shapeCasts_S8192x8x512_S8192x4096 : S8192x8x512.ShapeCasts S8192x4096
  transposes_S8x4096_S4096x8_1_0 : S8x4096.Transposes [1, 0] S4096x8
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  reducesTo_S8192x8_S8192_d1 : S8192x8.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  dot_S8192x4096_S8x512x4096_S8192x8x512_1_2_0_01_n_n_wf : DotDims.WF S8192x4096 S8x512x4096 S8192x8x512 [1] [2] [0] [0, 1] [] []
  dot_S8192x4096_S4096x8_S8192x8_1_0_0_1_n_n_wf : DotDims.WF S8192x4096 S4096x8 S8192x8 [1] [0] [0] [1] [] []

variable [Facts₀]

def dot_S8192x4096_S8x512x4096_S8192x8x512_1_2_0_01_n_n : DotDims S8192x4096 S8x512x4096 S8192x8x512 where
  lhsContracting := [1]
  rhsContracting := [2]
  lhsNonContracting := [0]
  rhsNonContracting := [0, 1]
  lhsBatch := []
  rhsBatch := []
  wf := dot_S8192x4096_S8x512x4096_S8192x8x512_1_2_0_01_n_n_wf
def dot_S8192x4096_S4096x8_S8192x8_1_0_0_1_n_n : DotDims S8192x4096 S4096x8 S8192x8 where
  lhsContracting := [1]
  rhsContracting := [0]
  lhsNonContracting := [0]
  rhsNonContracting := [1]
  lhsBatch := []
  rhsBatch := []
  wf := dot_S8192x4096_S4096x8_S8192x8_1_0_0_1_n_n_wf

class Facts : Prop extends Facts₀ where

variable [Facts]
-- ==== Proof.RibbonSpec.lean ====
/-
  What both programs compute, as functions of the argument arrays over the extended reals.

  The first result has one row per input row and 4096 columns: eight experts' 512 outputs laid side by
  side. Column `c` therefore belongs to expert `c / 512` and is that expert's output `c % 512`, and the
  entry at row `b`, column `c` is tanh of the inner product of row `b` of `x` with row `c % 512` of
  expert `c / 512`'s weight matrix. Nothing here mentions a program: the two sides are each proved equal
  to this one function.
-/
import Idealize.ShloMosaic.PureOps.Ideal
import Idealize.ShloMosaic.Lib.ValueIdx

noncomputable section

namespace Cert.Ribbon

open Idealize.ShloMosaic Idealize.ShloMosaic.ValueIdx

/-- The expert a column of the first result belongs to. -/
def expertOf (col : Fin 4096) : Fin 8 := ⟨col.val / 512, by have := col.isLt; omega⟩

/-- Which of its expert's 512 outputs a column of the first result is. -/
def unitOf (col : Fin 4096) : Fin 512 := ⟨col.val % 512, by omega⟩

/-- The first result at row `b`, column `col`: tanh of the inner product, over the 4096 input features, of row
    `b` of `x` with row `unitOf col` of expert `expertOf col`'s weights. -/
def manifoldAt (x : (⟨2, ![8192, 4096]⟩ : Shape).Idx → EReal) (W : (⟨3, ![8, 512, 4096]⟩ : Shape).Idx → EReal)
    (b : Fin 8192) (col : Fin 4096) : EReal :=
  Ideal.tanh (∑ k : Fin 4096, x (ix2 b k) * W (ix3 (expertOf col) (unitOf col) k))

/-- The first result as one array. -/
def manifold (x : (⟨2, ![8192, 4096]⟩ : Shape).Idx → EReal) (W : (⟨3, ![8, 512, 4096]⟩ : Shape).Idx → EReal) :
    (⟨2, ![8192, 4096]⟩ : Shape).Idx → EReal :=
  fun i => manifoldAt x W (i 0) (i 1)

end Cert.Ribbon

end
-- ==== Proof.RibbonReference.lean ====
/-
  The reference's first result is the specification's `manifold`.

  The reference contracts `x` [8192, 4096] with `W` [8, 512, 4096] over the feature axis into [8192, 8, 512],
  flattens the last two axes into 4096 columns, and applies tanh. Flattening sends (e, d) to column
  512 e + d, so column `c` reads the product at (c / 512, c % 512): the specification's expert and unit.
-/
import proofs.«169655_j20813411516527_2_alg».proof.Proof.Gen.ReferenceIdeal.Read
import proofs.«169655_j20813411516527_2_alg».proof.Proof.RibbonSpec

noncomputable section

namespace Cert.Ribbon.Reference

open Cert.ReferenceIdeal Cert.ReferenceIdeal.Gen Cert.ReferenceIdeal.Read
open Idealize.ShloMosaic Idealize.ShloMosaic.ValueIdx

/-- Row `(i 0)`, feature `k` of `x`: the flattened position (i 0)·4096 + (i 1) divided by 4096 is the row again. -/
theorem left_index (i : S8192x4096.Idx) (k : Fin 4096) :
    lidx_main_v0 (idx_main_v1 i) k = (ix2 (i 0 : Fin 8192) k : (⟨2, ![8192, 4096]⟩ : Shape).Idx) :=
  funext fun a => Fin.ext (by
    have h0 : (i 0).val < 8192 := (i 0).isLt
    have h1 : (i 1).val < 4096 := (i 1).isLt
    match a with
    | ⟨0, _⟩ => show ((i 0).val * 4096 + (i 1).val) / 4096 = (i 0).val; omega
    | ⟨1, _⟩ => rfl)

/-- Expert, unit and feature of `W`: the flattened position splits as 512·(8·row + expert) + unit. -/
theorem right_index (i : S8192x4096.Idx) (k : Fin 4096) :
    ridx_main_v0 (idx_main_v1 i) k
      = (ix3 (expertOf (i 1 : Fin 4096)) (unitOf (i 1 : Fin 4096)) k : (⟨3, ![8, 512, 4096]⟩ : Shape).Idx) :=
  funext fun a => Fin.ext (by
    have h0 : (i 0).val < 8192 := (i 0).isLt
    have h1 : (i 1).val < 4096 := (i 1).isLt
    match a with
    | ⟨0, _⟩ => show ((i 0).val * 4096 + (i 1).val) / 512 % 8 = (i 1).val / 512; omega
    | ⟨1, _⟩ => show ((i 0).val * 4096 + (i 1).val) % 512 = (i 1).val % 512; omega
    | ⟨2, _⟩ => rfl)

/-- The reference's first result, stage by stage (tanh of the reshaped contraction), is `manifold`. -/
theorem manifold_eq (x0 : (⟨S8192x4096, .f32⟩ : BufTy).Contents (Elt Ideal))
    (x1 : (⟨S8x512x4096, .f32⟩ : BufTy).Contents (Elt Ideal)) :
    val_main_v2 (F := Ideal) x0 x1 = manifold x0 x1 := by
  funext i
  rw [val_main_v2_apply, val_main_v1_apply, val_main_v0_apply]
  simp only [left_index, right_index]
  rfl

end Cert.Ribbon.Reference

end
-- ==== Proof.RibbonPayload.lean ====
/-
  The kernel body's arithmetic at one entry of its output block.

  At a grid point the body holds a block of 1024 rows of `x` and one expert's whole weight matrix
  (512 × 4096, carried with a leading unit axis), multiplies the rows by the transposed weights into a zero
  accumulator, and applies tanh. At row `p`, unit `q` of the block that is tanh of the inner product of block
  row `p` with weight row `q`: the zero accumulator adds nothing, and the product's one contracted axis is the
  feature axis of both operands.
-/
import proofs.«169655_j20813411516527_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Ribbon.Kernel

open Cert.KernelIdeal Cert.KernelIdeal.Gen
open Idealize.ShloMosaic Idealize.ShloMosaic.ValueIdx

/-- The body's product: [1024, 4096] by [512, 4096], both contracted over their second axis. -/
abbrev blockDot : DotDims S1024x4096 S512x4096 S1024x512 := dot_S1024x4096_S512x4096_S1024x512_1_1_0_0_n_n

/-- The left operand's row is the output's row. -/
theorem left_row (i : S1024x512.Idx) (κ : blockDot.contr.Idx) : (blockDot.lhsIdx i κ 0).val = (i 0).val := by
  unfold DotDims.lhsIdx
  rw [dif_neg (show ¬(0 : Fin S1024x4096.rank) ∈ blockDot.lhsBatch by decide),
    dif_pos (show (0 : Fin S1024x4096.rank) ∈ blockDot.lhsNonContracting by decide)]
  rfl
/-- The left operand's column is the contracted feature. -/
theorem left_feature (i : S1024x512.Idx) (κ : blockDot.contr.Idx) :
    (blockDot.lhsIdx i κ 1).val = (κ ⟨0, by decide⟩).val :=
  blockDot.lhsIdx_val_of_single rfl i κ
/-- The right operand's row is the output's column. -/
theorem right_row (i : S1024x512.Idx) (κ : blockDot.contr.Idx) : (blockDot.rhsIdx i κ 0).val = (i 1).val := by
  unfold DotDims.rhsIdx
  rw [dif_neg (show ¬(0 : Fin S512x4096.rank) ∈ blockDot.rhsBatch by decide),
    dif_pos (show (0 : Fin S512x4096.rank) ∈ blockDot.rhsNonContracting by decide)]
  rfl
/-- The right operand's column is the contracted feature. -/
theorem right_feature (i : S1024x512.Idx) (κ : blockDot.contr.Idx) :
    (blockDot.rhsIdx i κ 1).val = (κ ⟨0, by decide⟩).val :=
  blockDot.rhsIdx_val_of_single rfl i κ

/-- The block product into the zero accumulator, at row `p` and unit `q`: the sum over the features of the
    products of the two rows' entries. -/
theorem blockDot_apply (l : FVec Ideal S1024x4096 .bf16) (r : FVec Ideal S512x4096 .bf16) (p : Fin 1024) (q : Fin 512) :
    FloatOps.matmul blockDot none l r (constant S1024x512 .f32 0x00000000#32) (ix2 p q)
      = ∑ k : Fin 4096, l (ix2 p k) * r (ix2 q k) := by
  refine (Ideal.matmul_constant_zero_apply blockDot none l r (ix2 p q)).trans ?_
  rw [← Equiv.sum_comp (contrEquiv1 blockDot 4096 rfl rfl).symm]
  refine Finset.sum_congr rfl fun k _ => ?_
  have hk := contrEquiv1_symm_val blockDot 4096 rfl rfl k
  have el : blockDot.lhsIdx (ix2 p q) ((contrEquiv1 blockDot 4096 rfl rfl).symm k) = ix2 p k :=
    funext fun a => Fin.ext (by
      match a with
      | ⟨0, _⟩ => exact left_row _ _
      | ⟨1, _⟩ => exact (left_feature _ _).trans hk)
  have er : blockDot.rhsIdx (ix2 p q) ((contrEquiv1 blockDot 4096 rfl rfl).symm k) = ix2 q k :=
    funext fun a => Fin.ext (by
      match a with
      | ⟨0, _⟩ => exact right_row _ _
      | ⟨1, _⟩ => exact (right_feature _ _).trans hk)
  rw [el, er]

/-- The body's stored value at row `p`, unit `q` of the output block, from the two loaded blocks: the casts are
    the identity on the rows of `x` and drop the weights' leading unit axis. -/
theorem payload_apply (x0 : FVec Ideal S1024x4096 .bf16) (x1 : FVec Ideal S1x512x4096 .bf16) (p : Fin 1024) (q : Fin 512) :
    k0_pay1 (F := Ideal) x0 x1 (ix2 p q)
      = Ideal.tanh (∑ k : Fin 4096, x0 (ix2 p k) * x1 (ix3 (0 : Fin 1) q k)) := by
  unfold k0_pay1
  show Ideal.tanh (FloatOps.matmul blockDot none (shapeCast S1024x4096 x0 shapeCasts_S1024x4096_S1024x4096)
    (shapeCast S512x4096 x1 shapeCasts_S1x512x4096_S512x4096) (constant S1024x512 .f32 0x00000000#32) (ix2 p q)) = _
  refine congrArg Ideal.tanh ?_
  refine (blockDot_apply _ _ p q).trans ?_
  refine Finset.sum_congr rfl fun k _ => ?_
  rw [shapeCast_self, shapeCast_1ab_ab_apply]

end Cert.Ribbon.Kernel

end
-- ==== Proof.RibbonBlocks.lean ====
/-
  From the kernel's blocks to its whole first result.

  The grid has 8 × 8 points. At point (bi, e) the body sees rows 1024·bi … 1024·bi + 1023 of `x` (all 4096
  features), the whole weight matrix of expert `e`, and writes the 1024 × 512 block of the result at block row
  `bi`, block column `e`. Entry (p, q) of that block is entry (1024·bi + p, 512·e + q) of the result, whose
  expert is `e` and whose unit is `q`: so what the point writes back is its block of the specification's
  `manifold` of the arrays the region finds. The 64 blocks tile the 8192 × 4096 result, so after the run the
  result array is `manifold` everywhere; and the arrays the region finds are the arguments themselves, the
  conversions before the region being the identity on the extended reals.
-/
import proofs.«169655_j20813411516527_2_alg».proof.Proof.Gen.KernelIdeal.Frame
import proofs.«169655_j20813411516527_2_alg».proof.Proof.RibbonSpec
import proofs.«169655_j20813411516527_2_alg».proof.Proof.RibbonPayload

noncomputable section

namespace Cert.Ribbon.Kernel

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The arrays the region finds -/

/-- The rows of `x` the region stages are the argument's: the conversion before the region changes no value. -/
theorem entry_x (c : Dev nD) :
    (V m c main_v0 : S8192x4096.Idx → EReal) = m ((c : Thread nD τ).loc main_arg0) := by
  show StableHlo.after hostOps0 (fun b => m (c, b)) (Proc.devRef .tc main_v0) = _
  after_results
  rfl

/-- Likewise the weights. -/
theorem entry_w (c : Dev nD) :
    (V m c main_v1 : S8x512x4096.Idx → EReal) = m ((c : Thread nD τ).loc main_arg1) := by
  show StableHlo.after hostOps0 (fun b => m (c, b)) (Proc.devRef .tc main_v1) = _
  after_results
  rfl

/-! ## The block index maps, over the 64 points -/

/-- The rows of `x` move with the result's block row and take every feature; the weights move with the result's
    block column and are taken whole; both block coordinates of the result stay below 8. -/
theorem index_facts : ∀ t : Fin cfg0.N,
    win0_0.index t (0 : Fin 2) = win0_2.index t (0 : Fin 2)
    ∧ win0_0.index t (1 : Fin 2) = 0
    ∧ win0_1.index t (0 : Fin 3) = win0_2.index t (1 : Fin 2)
    ∧ win0_1.index t (1 : Fin 3) = 0
    ∧ win0_1.index t (2 : Fin 3) = 0
    ∧ win0_2.index t (0 : Fin 2) < 8
    ∧ win0_2.index t (1 : Fin 2) < 8 :=
  (by decide +kernel : ∀ t : Fin grid0.N, _)

/-- Every block of the result is some point's. -/
theorem index_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-! ## What a point writes back -/

/-- Point `t` writes back its block of `manifold` of the arrays the region finds. -/
theorem flushed_eq (c : Dev nD) (t : Fin cfg0.N) :
    (dats m 0 c).flushed 2 t
      = ((cfg0.win 2).blk t).view.read (Elt Ideal) (manifold (V m c main_v0) (V m c main_v1)) := by
  show (cfg0.win 2).cut (grid0.coords t) ((dats m 0 c).after 2 t) = _
  rw [after0_2]
  unfold out0_2
  rw [View.canon_unit_zero zeros2]
  simp only [View.ld_unit_zero (S := S1024x4096) zeros2, View.ld_unit_zero (S := S1x512x4096) zeros3]
  obtain ⟨e0, e1, e2, e3, e4, e5, e6⟩ := index_facts t
  funext j
  obtain ⟨p, q, rfl⟩ : ∃ (p : Fin 1024) (q : Fin 512), j = ix2 p q := ⟨j 0, j 1, eq_ix2 j⟩
  show k0_pay1 (F := Ideal) (iblk m c 0 t) (iblk m c 1 t) (ix2 p q)
    = manifold (V m c main_v0) (V m c main_v1) (((cfg0.win 2).blk t).view.emb (ix2 p q))
  refine (payload_apply (iblk m c 0 t) (iblk m c 1 t) p q).trans ?_
  refine congrArg Ideal.tanh (Finset.sum_congr rfl fun k _ => ?_)
  have hp : p.val < 1024 := p.isLt
  have hq : q.val < 512 := q.isLt
  have hx : ((cfg0.win 0).blk t).view.emb (ix2 p k) = ix2 (((cfg0.win 2).blk t).view.emb (ix2 p q) 0) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 4096 + 1 * k.val = k.val; omega
  have hw : ((cfg0.win 1).blk t).view.emb (ix3 (0 : Fin 1) q k)
      = ix3 (expertOf (((cfg0.win 2).blk t).view.emb (ix2 p q) 1)) (unitOf (((cfg0.win 2).blk t).view.emb (ix2 p q) 1)) k := by
    funext a; apply Fin.ext
    match a with
    | ⟨0, _⟩ => show win0_1.index t (0 : Fin 3) * 1 + 1 * 0 = (win0_2.index t (1 : Fin 2) * 512 + 1 * q.val) / 512; omega
    | ⟨1, _⟩ => show win0_1.index t (1 : Fin 3) * 512 + 1 * q.val = (win0_2.index t (1 : Fin 2) * 512 + 1 * q.val) % 512; omega
    | ⟨2, _⟩ => show win0_1.index t (2 : Fin 3) * 4096 + 1 * k.val = k.val; omega
  exact congrArg₂ (fun a b : EReal => a * b) (congrArg (V m c main_v0) hx) (congrArg (V m c main_v1) hw)

/-! ## The blocks tile the result -/

/-- An index of the result is in point `t`'s block iff each coordinate is in the block's range on its axis. -/
theorem mem_blk (t : Fin cfg0.N) (i : S8192x4096.Idx) :
    i ∈ ((cfg0.win 2).blk t).view.set
      ↔ ∀ a : Fin 2, win0_2.index t a * S1024x512.size a ≤ (i a).val
          ∧ (i a).val < win0_2.index t a * S1024x512.size a + S1024x512.size a := by
  show i ∈ ((View.whole main_v2).slice (win0_2.rect t)).set ↔ _
  rw [View.set_slice_whole, Rect.mem_set_unit]
  exact Iff.rfl

/-- Row `r`, column `col` lies in the block at block row `r / 1024`, block column `col / 512`, and the point with
    that block writes it back. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := index_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

/-! ## The result array after the run -/

/-- After every point has written back, the first result's array is `manifold` of the two arguments. -/
theorem final (c : Dev nD) :
    (dats m 0 c).arrAt 2 cfg0.N
      = manifold (m ((c : Thread nD τ).loc main_arg0)) (m ((c : Thread nD τ).loc main_arg1)) := by
  rw [(dats m 0 c).arrAt_eq_of_cover 2 (manifold (V m c main_v0) (V m c main_v1)) (fun t _ => flushed_eq m c t) cover,
    entry_x, entry_w]

end Cert.Ribbon.Kernel

end
-- ==== Proof.RibbonTail.lean ====
/-
  The kernel program's second result.

  After the region the program computes the gate on the host: the logits `x · gate_wᵀ + gate_b + adjustment`,
  and their softmax along the eight experts. These operations read only the arguments (never an array the region
  writes), and they are, operation for operation, the ones the reference applies. So the second result is the
  reference's own gate function of the same four arguments; that function is carried whole and never opened.
-/
import proofs.«169655_j20813411516527_2_alg».proof.Proof.Gen.KernelIdeal.Frame
import proofs.«169655_j20813411516527_2_alg».proof.Proof.Gen.ReferenceIdeal.Read

noncomputable section

namespace Cert.Ribbon.Kernel

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- An argument the region does not stage is, when the later host lines read it, as launched: the region's own
    arrays are the only ones it changes, and the conversions before it write their own results only. -/
theorem arg0_after (c : Dev nD) :
    Pipeline.withArrays (cfgs 0).spec c (V0 m c) (fun w => (dats m 0 c).arrAt w (cfgs 0).N) (Proc.devRef .tc main_arg0)
      = m ((c : Thread nD τ).loc main_arg0) :=
  (Pipeline.withArrays_of_ne _ c (V0 m c) _ main_arg0 (by exact (by decide : ∀ w, Pipeline.arrRef spec0 w ≠ main_arg0))).trans
    (V_main_arg0 m c)
theorem arg2_after (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)
theorem arg3_after (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans
    (V_main_arg3 m c)
theorem arg4_after (c : Dev nD) :
    Pipeline.withArrays (cfgs 0).spec c (V0 m c) (fun w => (dats m 0 c).arrAt w (cfgs 0).N) (Proc.devRef .tc main_arg4)
      = m ((c : Thread nD τ).loc main_arg4) :=
  (Pipeline.withArrays_of_ne _ c (V0 m c) _ main_arg4 (by exact (by decide : ∀ w, Pipeline.arrRef spec0 w ≠ main_arg4))).trans
    (V_main_arg4 m c)

set_option maxHeartbeats 2000000 in
/-- The second result after the run: the reference's gate function of the arguments `x`, `gate_w`, `gate_b` and
    the adjustment. -/
theorem gate_eq (c : Dev nD) :
    Pipeline.afterTail₀ cfgs (dats m) 0 (V0 m) [hostOps1] c main_v21
      = Cert.ReferenceIdeal.Read.val_main_v21 (F := Ideal) (m ((c : Thread nD τ).loc main_arg0))
          (m ((c : Thread nD τ).loc main_arg2)) (m ((c : Thread nD τ).loc main_arg3)) (m ((c : Thread nD τ).loc main_arg4)) := by
  unfold Pipeline.afterTail₀
  show StableHlo.after hostOps1 _ (Proc.devRef .tc main_v21) = _
  after_results
  rw [arg0_after, arg2_after, arg3_after, arg4_after]
  rfl

end Cert.Ribbon.Kernel

end
-- ==== Proof.RibbonRun.lean ====
/-
  The idealized kernel program's run, with both results named.

  Every weakly fair execution terminates without a fault; the first result's array ends at the specification's
  `manifold` of `x` and `W` (the 64 blocks, assembled), the second at the reference's gate function of `x`, the
  gate weights, the gate bias and the adjustment (the host lines after the region), and the five arguments end
  as launched.
-/
import proofs.«169655_j20813411516527_2_alg».proof.Proof.RibbonBlocks
import proofs.«169655_j20813411516527_2_alg».proof.Proof.RibbonTail

noncomputable section

namespace Cert.Ribbon.Kernel

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The run of the idealized kernel program: the region's result array as assembled from its blocks, the host
    tail's result read off the lines after the region, the arguments untouched by either. -/
theorem run : θ_run defs (onTc (τ := τ) (main (F := Ideal))) ⟨m, fun _ => 0, ρ⟩ fun r => ∀ c : Dev nD,
      r.2.mem ((c.tc : Thread nD τ).loc main_v2)
        = manifold (m ((c.tc : Thread nD τ).loc main_arg0)) (m ((c.tc : Thread nD τ).loc main_arg1))
      ∧ r.2.mem ((c.tc : Thread nD τ).loc main_v21)
        = Cert.ReferenceIdeal.Read.val_main_v21 (F := Ideal) (m ((c.tc : Thread nD τ).loc main_arg0))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 2).trans (final m c),
      ((h c).2 main_v21 (Pipeline.mem_restRefs_of main_v21 (by decide) (by decide))).trans (gate_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Ribbon.Kernel

end
-- ==== Proof.lean ====
/-
  The certificate's five claims.

  The kernel program and the reference compute the same two results on the extended reals.
  * The first, [8192, 4096]: at row `b` and column `c`, tanh of the inner product of row `b` of `x` with row
    `c % 512` of expert `c / 512`'s weights (`Cert.Ribbon.manifold`). The kernel reaches it block by block — an
    8 × 8 grid, one 1024 × 512 block per point, a product into a zero accumulator followed by tanh, over inputs
    whose conversion to a narrower format is the identity here; the reference by one contraction over the feature
    axis into [8192, 8, 512], a flattening of the last two axes, and tanh. A sum is the same sum in either
    grouping, so no finiteness of the inputs is used.
  * The second, [8192, 8]: the softmax over the experts of `x · gate_wᵀ + gate_b + adjustment`. Both programs compute
    it by the same host operations on the same arguments, so it is carried as one function and never opened.
  The three frames are the generated ones (for the reference, its generated run with the results dropped), and the
  idealization rewrote no operation, so that claim is `True`.
-/
import proofs.«169655_j20813411516527_2_alg».proof.Defs
import proofs.«169655_j20813411516527_2_alg».proof.Proof.Gen.Kernel
import proofs.«169655_j20813411516527_2_alg».proof.Proof.Gen.Kernel.Frame
import proofs.«169655_j20813411516527_2_alg».proof.Proof.Gen.KernelIdeal
import proofs.«169655_j20813411516527_2_alg».proof.Proof.Gen.KernelIdeal.Frame
import proofs.«169655_j20813411516527_2_alg».proof.Proof.Gen.ReferenceIdeal
import proofs.«169655_j20813411516527_2_alg».proof.Proof.Gen.Pre_finite_inputs
import proofs.«169655_j20813411516527_2_alg».proof.Proof.Gen.ReferenceIdeal.Run
import proofs.«169655_j20813411516527_2_alg».proof.Proof.Gen.ReferenceIdeal.Read
import proofs.«169655_j20813411516527_2_alg».proof.Proof.RibbonReference
import proofs.«169655_j20813411516527_2_alg».proof.Proof.RibbonRun

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run leaves its arguments as launched: its generated run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the five arguments both programs end with the first result at `manifold` of `x` and
    `W` and the second at the gate function of the other arguments: the kernel's run states exactly that, and the
    reference's generated run states the same two functions of its own arguments, which agree with the kernel's. -/
theorem algebraic : Cert.algebraic_KernelIdeal_ReferenceIdeal := by
  intro m ρ m' ρ' _ hagree
  refine ⟨_, _, Cert.Ribbon.Kernel.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v2_eq, Cert.Ribbon.Reference.manifold_eq,
      (hagree c).1, (hagree c).2.1]
  · rw [(h c).2.1, Cert.ReferenceIdeal.Read.val_main_v21_eq,
      (hagree c).1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
